-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000x64, .f32⟩
  | .hbm, ⟨48, _⟩ => ⟨S_, .f32⟩
  | .hbm, ⟨49, _⟩ => ⟨S100000x64, .f32⟩
  | .hbm, ⟨50, _⟩ => ⟨S1200000x1, .i32⟩
  | .hbm, ⟨51, _⟩ => ⟨S100000x64, .f32⟩
  | .hbm, ⟨52, _⟩ => ⟨S_, .f32⟩
  | .hbm, ⟨53, _⟩ => ⟨S1200000, .f32⟩
  | .hbm, ⟨54, _⟩ => ⟨S_, .f32⟩
  | .hbm, ⟨55, _⟩ => ⟨S100000, .f32⟩
  | .hbm, ⟨56, _⟩ => ⟨S1200000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S_, .f32⟩
  | .hbm, ⟨60, _⟩ => ⟨S1200000, .f32⟩
  | .hbm, ⟨61, _⟩ => ⟨S_, .f32⟩
  | .hbm, ⟨62, _⟩ => ⟨S100000, .f32⟩
  | .hbm, ⟨63, _⟩ => ⟨S1200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The two-kernel program's run with its result named.

  The program is a stretch of host operations, the first layer kernel, a second stretch of host operations and the
  second layer kernel. Its buffers' contents at the four boundaries are a fold from the launch memory: a stretch
  leaves every buffer at the value of the operations applied to what was there, a kernel leaves each of its arrays
  at what its write-backs fold to and every other buffer alone. Every weakly fair execution terminates without a
  fault in a state whose unscoped buffers hold the last boundary's contents; read at the result buffer this names
  the result, and read at the eight arguments it gives them back unchanged.
-/
import proofs.«172333_j50276887167532_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the eight arguments as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.SageLayer.lean ====
/-
  One dense layer of a mean-aggregation graph network, read entry by entry over the extended reals.

  For aggregated neighbour features a and node features x, both [R, 64], weights wl, wr, both [64, 64], and a bias
  β over the 64 output columns, entry (r, j) of the layer is
      Σ_k a[r, k] · wl[k, j]  +  Σ_k x[r, k] · wr[k, j]  +  β j                                   (`affAt`),
  and the layer with a floor at zero is its maximum with 0.
  Two arrangements of the same sums meet here. A host program adds the bias to the first product and then the
  second product: (a·wl + β) + x·wr. A kernel body adds the two products, each accumulated from zero, and then
  the bias: (a·wl + x·wr) + β. Addition of extended reals is commutative and associative whatever the summands
  (an infinity included), so the two agree entry by entry with no finiteness assumption (`host_arrangement`,
  `body_arrangement`).
  Only rows matter: entry (r, j) reads row r of a and of x, so a block of rows cut out of a and x gives the
  corresponding entries of the whole layer (`affAt_congr`).
-/
import Idealize.ShloMosaic.Lib.ValueIdx
import Idealize.ShloMosaic.Lib.ValueLayout
import Idealize.ShloMosaic.Lib.Pipeline.Value
import Idealize.ShloMosaic.PureOps.Ideal.Laws
import proofs.«172333_j50276887167532_1_alg».proof.Proof.LibDotRows

noncomputable section

namespace Cert.Sage

open Idealize.ShloMosaic Idealize.ShloMosaic.ValueIdx

variable {R R' : Nat}

/-- Entry (r, j) of a·wl + x·wr + β. -/
def affAt (a x : FVec Ideal ⟨2, ![R, 64]⟩ .f32) (wl wr : FVec Ideal ⟨2, ![64, 64]⟩ .f32) (β : Fin 64 → EReal)
    (r : Fin R) (j : Fin 64) : EReal :=
  ((∑ k : Fin 64, a (ix2 r k) * wl (ix2 k j)) + ∑ k : Fin 64, x (ix2 r k) * wr (ix2 k j)) + β j

/-- The layer as a whole array [R, 64]. -/
def lin (a x : FVec Ideal ⟨2, ![R, 64]⟩ .f32) (wl wr : FVec Ideal ⟨2, ![64, 64]⟩ .f32) (β : Fin 64 → EReal) :
    FVec Ideal ⟨2, ![R, 64]⟩ .f32 :=
  fun i => affAt a x wl wr β (i 0) (i 1)

/-- The layer with a floor at zero, as a whole array [R, 64]. -/
def linFloor (a x : FVec Ideal ⟨2, ![R, 64]⟩ .f32) (wl wr : FVec Ideal ⟨2, ![64, 64]⟩ .f32) (β : Fin 64 → EReal) :
    FVec Ideal ⟨2, ![R, 64]⟩ .f32 :=
  fun i => max (affAt a x wl wr β (i 0) (i 1)) 0

theorem lin_apply (a x : FVec Ideal ⟨2, ![R, 64]⟩ .f32) (wl wr : FVec Ideal ⟨2, ![64, 64]⟩ .f32) (β : Fin 64 → EReal)
    (r : Fin R) (j : Fin 64) : lin a x wl wr β (ix2 r j) = affAt a x wl wr β r j := rfl

theorem linFloor_apply (a x : FVec Ideal ⟨2, ![R, 64]⟩ .f32) (wl wr : FVec Ideal ⟨2, ![64, 64]⟩ .f32) (β : Fin 64 → EReal)
    (r : Fin R) (j : Fin 64) : linFloor a x wl wr β (ix2 r j) = max (affAt a x wl wr β r j) 0 := rfl

/-- Entry (r, j) depends on row r of a and x, on column j of the weights and on β j only. -/
theorem affAt_congr (a x : FVec Ideal ⟨2, ![R, 64]⟩ .f32) (a' x' : FVec Ideal ⟨2, ![R', 64]⟩ .f32)
    (wl wr wl' wr' : FVec Ideal ⟨2, ![64, 64]⟩ .f32) (β β' : Fin 64 → EReal) (r : Fin R) (r' : Fin R') (j : Fin 64)
    (ha : ∀ k : Fin 64, a (ix2 r k) = a' (ix2 r' k)) (hx : ∀ k : Fin 64, x (ix2 r k) = x' (ix2 r' k))
    (hwl : ∀ k : Fin 64, wl (ix2 k j) = wl' (ix2 k j)) (hwr : ∀ k : Fin 64, wr (ix2 k j) = wr' (ix2 k j))
    (hβ : β j = β' j) :
    affAt a x wl wr β r j = affAt a' x' wl' wr' β' r' j := by
  unfold affAt
  have h1 : (∑ k : Fin 64, a (ix2 r k) * wl (ix2 k j)) = ∑ k : Fin 64, a' (ix2 r' k) * wl' (ix2 k j) :=
    Finset.sum_congr rfl fun k _ => by rw [ha k, hwl k]
  have h2 : (∑ k : Fin 64, x (ix2 r k) * wr (ix2 k j)) = ∑ k : Fin 64, x' (ix2 r' k) * wr' (ix2 k j) :=
    Finset.sum_congr rfl fun k _ => by rw [hx k, hwr k]
  rw [h1, h2, hβ]

/-- THE HOST'S ARRANGEMENT: (a·wl + B) + x·wr at entry (r, j), where B reads β j there. -/
theorem host_arrangement (a x : FVec Ideal ⟨2, ![R, 64]⟩ .f32) (wl wr : FVec Ideal ⟨2, ![64, 64]⟩ .f32)
    (B : FVec Ideal ⟨2, ![R, 64]⟩ .f32) (β : Fin 64 → EReal) (r : Fin R) (j : Fin 64) (hB : B (ix2 r j) = β j) :
    addf (addf (Host.dotGeneral (F := Ideal) (DotDims.plain R 64 64) none a wl) B)
        (Host.dotGeneral (F := Ideal) (DotDims.plain R 64 64) none x wr) (ix2 r j)
      = affAt a x wl wr β r j := by
  rw [addf_apply, addf_apply, Cert.Lib.DotRows.dotGeneral_plain_apply, Cert.Lib.DotRows.dotGeneral_plain_apply, hB]
  unfold affAt
  exact add_right_comm _ _ _

/-- THE BODY'S ARRANGEMENT: (a·wl + x·wr) + B at entry (r, j), each product accumulated from the zero splat. -/
theorem body_arrangement (a x : FVec Ideal ⟨2, ![R, 64]⟩ .bf16) (wl wr : FVec Ideal ⟨2, ![64, 64]⟩ .bf16)
    (B : FVec Ideal ⟨2, ![R, 64]⟩ .f32) (β : Fin 64 → EReal) (r : Fin R) (j : Fin 64) (hB : B (ix2 r j) = β j) :
    addf (addf (matmul (F := Ideal) (DotDims.plain R 64 64) none a wl (constant ⟨2, ![R, 64]⟩ .f32 0x00000000#32))
          (matmul (F := Ideal) (DotDims.plain R 64 64) none x wr (constant ⟨2, ![R, 64]⟩ .f32 0x00000000#32))) B (ix2 r j)
      = affAt (R := R) a x wl wr β r j := by
  rw [addf_apply, addf_apply, Cert.Lib.DotRows.matmul_plain_apply, Cert.Lib.DotRows.matmul_plain_apply, hB]
  rfl

end Cert.Sage

end
-- ==== Proof.RegionValue.lean ====
/-
  What each of the two layer kernels leaves in its output array, as one function of the arrays it finds.

  Each kernel runs over 20 grid points. At point t it reads rows 5000·t … 5000·t + 4999 of the aggregated
  features and of the node features, the whole of both weight matrices and the bias row, and writes the same rows
  of its output. Its body is the layer's arithmetic on that block of rows, and entry (r, j) of the layer reads
  only row r of its two feature operands: so what point t writes back is rows 5000·t … of the layer of the WHOLE
  arrays, and since the 20 blocks tile the 100000 rows the output array ends as the layer of the whole arrays.
  The first kernel's layer has the floor at zero, the second has none.
  Everything is stated for any contents `V` of the buffers when the kernel is entered.
-/
import proofs.«172333_j50276887167532_1_alg».proof.Proof.Gen.KernelIdeal.Frame
import proofs.«172333_j50276887167532_1_alg».proof.Proof.SageLayer

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Facts₀ Cert.Sage

theorem hz : (![0, 0] : Fin 2 → Nat) = fun _ => 0 := funext fun a => by fin_cases a <;> rfl

theorem truncf_eq {s : Shape} {φ ψ : FTy} (a : FVec Ideal s φ) (h : ψ.bits < φ.bits) :
    truncf ψ a h = (a : FVec Ideal s ψ) := rfl

theorem dot_plain : dot_S5000x64_S64x64_S5000x64_1_0_0_1_n_n = DotDims.plain 5000 64 64 := rfl

/-- The first kernel's arithmetic at entry (p, q) of its block: the layer of the loaded blocks, with the floor. -/
theorem pay0_apply (v0 v3 : Vec Ideal S5000x64 .f32) (v5 v7 : Vec Ideal S64x64 .f32) (v12 : Vec Ideal S1x64 .f32)
    (p : Fin 5000) (q : Fin 64) :
    k0_pay1 (F := Ideal) v0 v3 v5 v7 v12 (ix2 p q)
      = max (affAt (R := 5000) v0 v3 v5 v7 (fun j => v12 (ix2 (0 : Fin 1) j)) p q) 0 := by
  unfold k0_pay1
  simp only [shapeCast_self, truncf_eq, dot_plain]
  rw [maximumf_apply, broadcast_apply,
    body_arrangement (R := 5000) v0 v3 v5 v7 _ (fun j => v12 (ix2 (0 : Fin 1) j)) p q
      (broadcastTo_1b_ab_apply v12 _ p q)]
  show max _ (Ideal.ofBits .f32 0x00000000#32) = _
  rw [Ideal.ofBits_zero_f32]

/-- Row 5000·t + p of the whole arrays: the row that row p of point t's blocks is. -/
def rowOf (tv : Nat) (p : Fin 5000) (h : tv < 20) : Fin 100000 := ⟨tv * 5000 + p.val, by have := p.isLt; omega⟩

section Region0

variable (V : (c : Dev nD) → (b : Ref sig .tc) → Buf (Elt Ideal) ((c : Thread nD τ).loc b))

/-- The first kernel's index maps over its 20 points: the two feature windows and the output window are on block
    row t, the weights and the bias on their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- WHAT POINT t WRITES BACK is block t of the layer (with the floor) of the whole arrays the kernel finds. -/
theorem flushed0 (c : Dev nD) (t : Fin cfg0.N) :
    (dat0 V c).flushed 5 t = ((cfg0.win 5).blk t).view.read (Elt Ideal)
      (linFloor (R := 100000) (V c main_v22) (V c main_arg0) (V c main_arg2) (V c main_arg4)
        (fun j => V c main_v23 (ix2 (0 : Fin 1) j))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, ht⟩ := idx0 t
  funext j
  obtain ⟨p, q, rfl⟩ : ∃ (p : Fin 5000) (q : Fin 64), j = ix2 p q := ⟨j 0, j 1, eq_ix2 (n0 := 5000) (n1 := 64) j⟩
  have he : ((cfg0.win 5).blk t).view.emb (ix2 p q) = ix2 (rowOf t.val p ht) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 64 + 1 * q.val = q.val; rw [e51]; omega
  show k0_pay1 (iblk0 V c 0 t) (iblk0 V c 1 t) (iblk0 V c 2 t) (iblk0 V c 4 t) (iblk0 V c 3 t) (ix2 p q)
    = linFloor (R := 100000) (V c main_v22) (V c main_arg0) (V c main_arg2) (V c main_arg4)
        (fun j => V c main_v23 (ix2 (0 : Fin 1) j)) (((cfg0.win 5).blk t).view.emb (ix2 p q))
  rw [he, linFloor_apply]
  refine (pay0_apply (iblk0 V c 0 t) (iblk0 V c 1 t) (iblk0 V c 2 t) (iblk0 V c 4 t) (iblk0 V c 3 t) p q).trans ?_
  refine congrArg (fun z : EReal => max z 0) ?_
  have ha : ∀ k : Fin 64, iblk0 V c 0 t (ix2 p k) = V c main_v22 (ix2 (rowOf t.val p ht) k) := fun k => by
    show V c main_v22 (((cfg0.win 0).blk t).view.emb (ix2 p k)) = _
    refine congrArg (V c main_v22) ?_
    funext a; apply Fin.ext
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  have hx : ∀ k : Fin 64, iblk0 V c 1 t (ix2 p k) = V c main_arg0 (ix2 (rowOf t.val p ht) k) := fun k => by
    show V c main_arg0 (((cfg0.win 1).blk t).view.emb (ix2 p k)) = _
    refine congrArg (V c main_arg0) ?_
    funext a; apply Fin.ext
    match a with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  have hwl : ∀ k : Fin 64, iblk0 V c 2 t (ix2 k q) = V c main_arg2 (ix2 k q) := fun k => by
    show V c main_arg2 (((cfg0.win 2).blk t).view.emb (ix2 k q)) = _
    refine congrArg (V c main_arg2) ?_
    funext a; apply Fin.ext
    match a with
    | ⟨0, _⟩ => show win0_2.index t (0 : Fin 2) * 64 + 1 * k.val = k.val; rw [e20]; omega
    | ⟨1, _⟩ => show win0_2.index t (1 : Fin 2) * 64 + 1 * q.val = q.val; rw [e21]; omega
  have hwr : ∀ k : Fin 64, iblk0 V c 4 t (ix2 k q) = V c main_arg4 (ix2 k q) := fun k => by
    show V c main_arg4 (((cfg0.win 4).blk t).view.emb (ix2 k q)) = _
    refine congrArg (V c main_arg4) ?_
    funext a; apply Fin.ext
    match a with
    | ⟨0, _⟩ => show win0_4.index t (0 : Fin 2) * 64 + 1 * k.val = k.val; rw [e40]; omega
    | ⟨1, _⟩ => show win0_4.index t (1 : Fin 2) * 64 + 1 * q.val = q.val; rw [e41]; omega
  have hβ : iblk0 V c 3 t (ix2 (0 : Fin 1) q) = V c main_v23 (ix2 (0 : Fin 1) q) := by
    show V c main_v23 (((cfg0.win 3).blk t).view.emb (ix2 (0 : Fin 1) q)) = _
    refine congrArg (V c main_v23) ?_
    funext a; apply Fin.ext
    match a with
    | ⟨0, _⟩ => show win0_3.index t (0 : Fin 2) * 1 + 1 * 0 = 0; rw [e30]
    | ⟨1, _⟩ => show win0_3.index t (1 : Fin 2) * 64 + 1 * q.val = q.val; rw [e31]; omega
  exact affAt_congr (R := 5000) (R' := 100000) (iblk0 V c 0 t) (iblk0 V c 1 t) (V c main_v22) (V c main_arg0)
    (iblk0 V c 2 t) (iblk0 V c 4 t) (V c main_arg2) (V c main_arg4)
    (fun j => iblk0 V c 3 t (ix2 (0 : Fin 1) j)) (fun j => V c main_v23 (ix2 (0 : Fin 1) j))
    p (rowOf t.val p ht) q ha hx hwl hwr hβ

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- The 20 blocks of 5000 rows tile the 100000 rows: row r is in the block of point r / 5000. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, by have h : (i 0).val / 5000 < 20 := by omega
                           exact lt_of_lt_of_eq h N_0.symm⟩, rfl⟩
  obtain ⟨-, -, -, -, -, -, -, -, -, -, e50, e51, -⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e50, htv]; omega
  | ⟨1, _⟩ => show win0_5.index t (1 : Fin 2) * 64 ≤ (i 1).val ∧ (i 1).val < win0_5.index t (1 : Fin 2) * 64 + 64; rw [e51]; omega

/-- THE OUTPUT ARRAY after the first kernel: the layer, with the floor, of the whole arrays it found. -/
theorem final0 (c : Dev nD) :
    (dat0 V c).arrAt 5 cfg0.N = linFloor (R := 100000) (V c main_v22) (V c main_arg0) (V c main_arg2) (V c main_arg4)
        (fun j => V c main_v23 (ix2 (0 : Fin 1) j)) :=
  (dat0 V c).arrAt_eq_of_cover 5 _ (fun t _ => flushed0 V c t) (cover0)

end Region0

/-- The second kernel's arithmetic at entry (p, q) of its block: the layer of the loaded blocks, no floor. -/
theorem pay1_apply (v0 v3 : Vec Ideal S5000x64 .f32) (v6 v8 : Vec Ideal S64x64 .f32) (v13 : Vec Ideal S1x64 .f32)
    (p : Fin 5000) (q : Fin 64) :
    k1_pay1 (F := Ideal) v0 v3 v6 v8 v13 (ix2 p q)
      = affAt (R := 5000) v0 v3 v6 v8 (fun j => v13 (ix2 (0 : Fin 1) j)) p q := by
  unfold k1_pay1
  simp only [shapeCast_self, truncf_eq, dot_plain]
  exact body_arrangement (R := 5000) v0 v3 v6 v8 _ (fun j => v13 (ix2 (0 : Fin 1) j)) p q
      (broadcastTo_1b_ab_apply v13 _ p q)

section Region1

variable (V : (c : Dev nD) → (b : Ref sig .tc) → Buf (Elt Ideal) ((c : Thread nD τ).loc b))

/-- The second kernel's index maps over its 20 points: the two feature windows and the output window are on block
    row t, the weights and the bias on their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 20 :=
  (by decide +kernel : ∀ t : Fin grid1.N, _)

/-- WHAT POINT t WRITES BACK is block t of the layer of the whole arrays the kernel finds. -/
theorem flushed1 (c : Dev nD) (t : Fin cfg1.N) :
    (dat1 V c).flushed 5 t = ((cfg1.win 5).blk t).view.read (Elt Ideal)
      (lin (R := 100000) (V c main_v43) (V c main_v24) (V c main_arg5) (V c main_arg7)
        (fun j => V c main_v44 (ix2 (0 : Fin 1) j))) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, ht⟩ := idx1 t
  funext j
  obtain ⟨p, q, rfl⟩ : ∃ (p : Fin 5000) (q : Fin 64), j = ix2 p q := ⟨j 0, j 1, eq_ix2 (n0 := 5000) (n1 := 64) j⟩
  have he : ((cfg1.win 5).blk t).view.emb (ix2 p q) = ix2 (rowOf t.val p ht) q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 64 + 1 * q.val = q.val; rw [e51]; omega
  show k1_pay1 (iblk1 V c 0 t) (iblk1 V c 1 t) (iblk1 V c 2 t) (iblk1 V c 4 t) (iblk1 V c 3 t) (ix2 p q)
    = lin (R := 100000) (V c main_v43) (V c main_v24) (V c main_arg5) (V c main_arg7)
        (fun j => V c main_v44 (ix2 (0 : Fin 1) j)) (((cfg1.win 5).blk t).view.emb (ix2 p q))
  rw [he, lin_apply]
  refine (pay1_apply (iblk1 V c 0 t) (iblk1 V c 1 t) (iblk1 V c 2 t) (iblk1 V c 4 t) (iblk1 V c 3 t) p q).trans ?_
  have ha : ∀ k : Fin 64, iblk1 V c 0 t (ix2 p k) = V c main_v43 (ix2 (rowOf t.val p ht) k) := fun k => by
    show V c main_v43 (((cfg1.win 0).blk t).view.emb (ix2 p k)) = _
    refine congrArg (V c main_v43) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  have hx : ∀ k : Fin 64, iblk1 V c 1 t (ix2 p k) = V c main_v24 (ix2 (rowOf t.val p ht) k) := fun k => by
    show V c main_v24 (((cfg1.win 1).blk t).view.emb (ix2 p k)) = _
    refine congrArg (V c main_v24) ?_
    funext a; apply Fin.ext
    match a with
    | ⟨0, _⟩ => show win1_1.index t (0 : Fin 2) * 5000 + 1 * p.val = t.val * 5000 + p.val; rw [e10]; omega
    | ⟨1, _⟩ => show win1_1.index t (1 : Fin 2) * 64 + 1 * k.val = k.val; rw [e11]; omega
  have hwl : ∀ k : Fin 64, iblk1 V c 2 t (ix2 k q) = V c main_arg5 (ix2 k q) := fun k => by
    show V c main_arg5 (((cfg1.win 2).blk t).view.emb (ix2 k q)) = _
    refine congrArg (V c main_arg5) ?_
    funext a; apply Fin.ext
    match a with
    | ⟨0, _⟩ => show win1_2.index t (0 : Fin 2) * 64 + 1 * k.val = k.val; rw [e20]; omega
    | ⟨1, _⟩ => show win1_2.index t (1 : Fin 2) * 64 + 1 * q.val = q.val; rw [e21]; omega
  have hwr : ∀ k : Fin 64, iblk1 V c 4 t (ix2 k q) = V c main_arg7 (ix2 k q) := fun k => by
    show V c main_arg7 (((cfg1.win 4).blk t).view.emb (ix2 k q)) = _
    refine congrArg (V c main_arg7) ?_
    funext a; apply Fin.ext
    match a with
    | ⟨0, _⟩ => show win1_4.index t (0 : Fin 2) * 64 + 1 * k.val = k.val; rw [e40]; omega
    | ⟨1, _⟩ => show win1_4.index t (1 : Fin 2) * 64 + 1 * q.val = q.val; rw [e41]; omega
  have hβ : iblk1 V c 3 t (ix2 (0 : Fin 1) q) = V c main_v44 (ix2 (0 : Fin 1) q) := by
    show V c main_v44 (((cfg1.win 3).blk t).view.emb (ix2 (0 : Fin 1) q)) = _
    refine congrArg (V c main_v44) ?_
    funext a; apply Fin.ext
    match a with
    | ⟨0, _⟩ => show win1_3.index t (0 : Fin 2) * 1 + 1 * 0 = 0; rw [e30]
    | ⟨1, _⟩ => show win1_3.index t (1 : Fin 2) * 64 + 1 * q.val = q.val; rw [e31]; omega
  exact affAt_congr (R := 5000) (R' := 100000) (iblk1 V c 0 t) (iblk1 V c 1 t) (V c main_v43) (V c main_v24)
    (iblk1 V c 2 t) (iblk1 V c 4 t) (V c main_arg5) (V c main_arg7)
    (fun j => iblk1 V c 3 t (ix2 (0 : Fin 1) j)) (fun j => V c main_v44 (ix2 (0 : Fin 1) j))
    p (rowOf t.val p ht) q ha hx hwl hwr hβ

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- The 20 blocks of 5000 rows tile the 100000 rows: row r is in the block of point r / 5000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, htv⟩ : ∃ t : Fin cfg1.N, t.val = (i 0).val / 5000 :=
    ⟨⟨(i 0).val / 5000, by have h : (i 0).val / 5000 < 20 := by omega
                           exact lt_of_lt_of_eq h N_1.symm⟩, rfl⟩
  obtain ⟨-, -, -, -, -, -, -, -, -, -, e50, e51, -⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e50, htv]; omega
  | ⟨1, _⟩ => show win1_5.index t (1 : Fin 2) * 64 ≤ (i 1).val ∧ (i 1).val < win1_5.index t (1 : Fin 2) * 64 + 64; rw [e51]; omega

/-- THE OUTPUT ARRAY after the second kernel: the layer of the whole arrays it found. -/
theorem final1 (c : Dev nD) :
    (dat1 V c).arrAt 5 cfg1.N = lin (R := 100000) (V c main_v43) (V c main_v24) (V c main_arg5) (V c main_arg7)
        (fun j => V c main_v44 (ix2 (0 : Fin 1) j)) :=
  (dat1 V c).arrAt_eq_of_cover 5 _ (fun t _ => flushed1 V c t) (cover1)

end Region1

end Cert.KernelIdeal.RegionValue

end
-- ==== Proof.HostRead.lean ====
/-
  The host side of the two-layer program: what the operations around the kernels compute.

  From the edge list e of shape [2, E] the program takes the row of sources and the row of destinations. The MEAN
  AGGREGATION of node features h over the edges gathers h at each edge's source (a negative source counted from
  the end), adds the gathered rows into the destination's row of a zero array, counts the edges into each
  destination the same way, and divides each row by its count, or by 1 where the count is below 1. Both layers use
  it, the first on the input features, the second on the first layer's output. It is carried here as ONE function
  `aggregate` of the features and the two index rows, and never opened: the reference applies the same operations.
  The bias vector [64] reaches a kernel recast as one row [1, 64], whose entry (0, j) is entry j.
-/
import proofs.«172333_j50276887167532_1_alg».proof.Proof.Gen.KernelIdeal.Frame
import proofs.«172333_j50276887167532_1_alg».proof.Proof.SageLayer
import proofs.«172333_j50276887167532_1_alg».proof.Proof.RegionValue

set_option maxRecDepth 16384

noncomputable section

namespace Cert.KernelIdeal.HostValue

open Idealize.ShloMosaic Idealize.ShloMosaic.TcCoe Idealize.ShloMosaic.ValueIdx
open Idealize.SL.Sem
open Cert.KernelIdeal Cert.KernelIdeal.Facts₀ Cert.Sage

/-- The row of edge sources. -/
def srcOf (e : Vec Ideal S2x1200000 .i32) : Vec Ideal S1200000 .i32 :=
  shapeCast _ (extractStridedSlice S1x1200000 ![0, 0] e slices_S2x1200000_S1x1200000_0_0) shapeCasts_S1x1200000_S1200000

/-- The row of edge destinations. -/
def dstOf (e : Vec Ideal S2x1200000 .i32) : Vec Ideal S1200000 .i32 :=
  shapeCast _ (extractStridedSlice S1x1200000 ![1, 0] e slices_S2x1200000_S1x1200000_1_0) shapeCasts_S1x1200000_S1200000

/-- The mean aggregation of node features `h` over edges with sources `s` and destinations `d`. -/
def aggregate (h : Vec Ideal S100000x64 .f32) (s d : Vec Ideal S1200000 .i32) : Vec Ideal S100000x64 .f32 :=
  Host.divf (F := Ideal)
    (Host.scatterAdd (F := Ideal) scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 d)
      (Host.gather gather_S100000x64_S1200000x1_S1200000x64_1_0_n_n_0_1_164 h
        (broadcastInDim S1200000x1 ![0] bcast_S1200000_S1200000x1_0
          (select (cmpi .slt s (broadcastInDim S1200000 ![] bcast_S_S1200000 (constantI S_ 32 0#32)))
            (addi s (broadcastInDim S1200000 ![] bcast_S_S1200000 (constantI S_ 32 100000#32))) s))))
    (broadcastInDim S100000x64 ![0, 1] bcast_S100000x1_S100000x64_0_1
      (broadcastInDim S100000x1 ![0] bcast_S100000_S100000x1_0
        (maximumf
          (Host.scatterAdd (F := Ideal) scatter_S100000_S1200000x1_S1200000_n_0_0_1
            (broadcastInDim S100000 ![] bcast_S_S100000 (constant (F := Ideal) S_ .f32 0x00000000#32))
            (broadcastInDim S1200000x1 ![0] bcast_S1200000_S1200000x1_0 d)
            (broadcastInDim S1200000 ![] bcast_S_S1200000 (constant (F := Ideal) S_ .f32 0x3F800000#32)))
          (broadcastInDim S100000 ![] bcast_S_S100000 (constant (F := Ideal) S_ .f32 0x3F800000#32)))))

/-- A bias vector recast as one row reads, at (0, j), its entry j. -/
theorem bias_row (b : Vec Ideal S64 .f32) (j : Fin 64) :
    shapeCast S1x64 b shapeCasts_S64_S1x64 (ix2 (0 : Fin 1) j) = b (ix1 j) := by
  refine (shapeCast_addUnit_apply ![64] b shapeCasts_S64_S1x64 (ix2 (0 : Fin 1) j)).trans (congrArg b ?_)
  funext a
  match a with
  | ⟨0, _⟩ => rfl

/-- The first layer's output: the layer with the floor, of the aggregated input features and the input features. -/
def hidden (x : Vec Ideal S100000x64 .f32) (e : Vec Ideal S2x1200000 .i32) (wl0 : Vec Ideal S64x64 .f32)
    (bl0 : Vec Ideal S64 .f32) (wr0 : Vec Ideal S64x64 .f32) : Vec Ideal S100000x64 .f32 :=
  linFloor (R := 100000) (aggregate x (srcOf e) (dstOf e)) x wl0 wr0 (fun j => bl0 (ix1 j))

/-- The program's result: the layer, without a floor, of the aggregated first-layer output and that output. -/
def twoLayers (x : Vec Ideal S100000x64 .f32) (e : Vec Ideal S2x1200000 .i32) (wl0 : Vec Ideal S64x64 .f32)
    (bl0 : Vec Ideal S64 .f32) (wr0 wl1 : Vec Ideal S64x64 .f32) (bl1 : Vec Ideal S64 .f32) (wr1 : Vec Ideal S64x64 .f32) :
    Vec Ideal S100000x64 .f32 :=
  lin (R := 100000) (aggregate (hidden x e wl0 bl0 wr0) (srcOf e) (dstOf e)) (hidden x e wl0 bl0 wr0) wl1 wr1
    (fun j => bl1 (ix1 j))

variable (m : (ℓ : Loc nD τ sig) → Buf (Elt Ideal) ℓ) (ρ : Dev nD → PrngReg)

/-! ## The first stretch of host operations, read at what the first kernel takes -/

set_option maxHeartbeats 4000000 in
theorem V1_v22 (c : Dev nD) : Gen.V1 m ρ c main_v22
    = aggregate (m ((c : Thread nD τ).loc main_arg0)) (srcOf (m ((c : Thread nD τ).loc main_arg1))) (dstOf (m ((c : Thread nD τ).loc main_arg1))) := by
  show StableHlo.after Gen.hostOps0 (Gen.W0 m ρ c) (Proc.devRef .tc main_v22) = _
  after_results_simp
  rfl

set_option maxHeartbeats 4000000 in
theorem V1_v23 (c : Dev nD) : Gen.V1 m ρ c main_v23 = shapeCast S1x64 (m ((c : Thread nD τ).loc main_arg3)) shapeCasts_S64_S1x64 := by
  show StableHlo.after Gen.hostOps0 (Gen.W0 m ρ c) (Proc.devRef .tc main_v23) = _
  after_results_simp <;> rfl

set_option maxHeartbeats 4000000 in
theorem V1_arg0 (c : Dev nD) : Gen.V1 m ρ c main_arg0 = (m ((c : Thread nD τ).loc main_arg0)) := by
  show StableHlo.after Gen.hostOps0 (Gen.W0 m ρ c) (Proc.devRef .tc main_arg0) = _
  after_results_simp <;> rfl

set_option maxHeartbeats 4000000 in
theorem V1_arg2 (c : Dev nD) : Gen.V1 m ρ c main_arg2 = (m ((c : Thread nD τ).loc main_arg2)) := by
  show StableHlo.after Gen.hostOps0 (Gen.W0 m ρ c) (Proc.devRef .tc main_arg2) = _
  after_results_simp <;> rfl

set_option maxHeartbeats 4000000 in
theorem V1_arg4 (c : Dev nD) : Gen.V1 m ρ c main_arg4 = (m ((c : Thread nD τ).loc main_arg4)) := by
  show StableHlo.after Gen.hostOps0 (Gen.W0 m ρ c) (Proc.devRef .tc main_arg4) = _
  after_results_simp <;> rfl

set_option maxHeartbeats 4000000 in
theorem W1_arg5 (c : Dev nD) : Gen.W1 m ρ c (Proc.devRef .tc main_arg5) = (m ((c : Thread nD τ).loc main_arg5)) := by
  show StableHlo.after Gen.hostOps0 (Gen.W0 m ρ c) (Proc.devRef .tc main_arg5) = _
  after_results_simp <;> rfl

set_option maxHeartbeats 4000000 in
theorem W1_arg6 (c : Dev nD) : Gen.W1 m ρ c (Proc.devRef .tc main_arg6) = (m ((c : Thread nD τ).loc main_arg6)) := by
  show StableHlo.after Gen.hostOps0 (Gen.W0 m ρ c) (Proc.devRef .tc main_arg6) = _
  after_results_simp <;> rfl

set_option maxHeartbeats 4000000 in
theorem W1_arg7 (c : Dev nD) : Gen.W1 m ρ c (Proc.devRef .tc main_arg7) = (m ((c : Thread nD τ).loc main_arg7)) := by
  show StableHlo.after Gen.hostOps0 (Gen.W0 m ρ c) (Proc.devRef .tc main_arg7) = _
  after_results_simp <;> rfl

set_option maxHeartbeats 4000000 in
theorem W1_v1 (c : Dev nD) : Gen.W1 m ρ c (Proc.devRef .tc main_v1) = srcOf (m ((c : Thread nD τ).loc main_arg1)) := by
  show StableHlo.after Gen.hostOps0 (Gen.W0 m ρ c) (Proc.devRef .tc main_v1) = _
  after_results_simp <;> rfl

set_option maxHeartbeats 4000000 in
theorem W1_v3 (c : Dev nD) : Gen.W1 m ρ c (Proc.devRef .tc main_v3) = dstOf (m ((c : Thread nD τ).loc main_arg1)) := by
  show StableHlo.after Gen.hostOps0 (Gen.W0 m ρ c) (Proc.devRef .tc main_v3) = _
  after_results_simp <;> rfl

/-! ## After the first kernel -/

/-- The first kernel's output array is the first layer's output. -/
theorem W2_v24 (c : Dev nD) : Gen.W2 m ρ c (Proc.devRef .tc main_v24) = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (Gen.W2_arr m ρ c 5).trans ?_
  refine (RegionValue.final0 (Gen.V1 m ρ) c).trans ?_
  rw [V1_v22, V1_arg0, V1_arg2, V1_arg4]
  unfold hidden
  refine congrArg (linFloor (R := 100000) _ _ _ _) ?_
  funext j
  rw [V1_v23]
  exact bias_row _ j

theorem W2_v1 (c : Dev nD) : Gen.W2 m ρ c (Proc.devRef .tc main_v1) = srcOf (m ((c : Thread nD τ).loc main_arg1)) :=
  (Gen.W2_of_ne m ρ c main_v1 (by decide)).trans (W1_v1 m ρ c)
theorem W2_v3 (c : Dev nD) : Gen.W2 m ρ c (Proc.devRef .tc main_v3) = dstOf (m ((c : Thread nD τ).loc main_arg1)) :=
  (Gen.W2_of_ne m ρ c main_v3 (by decide)).trans (W1_v3 m ρ c)
theorem W2_arg5 (c : Dev nD) : Gen.W2 m ρ c (Proc.devRef .tc main_arg5) = (m ((c : Thread nD τ).loc main_arg5)) :=
  (Gen.W2_of_ne m ρ c main_arg5 (by decide)).trans (W1_arg5 m ρ c)
theorem W2_arg6 (c : Dev nD) : Gen.W2 m ρ c (Proc.devRef .tc main_arg6) = (m ((c : Thread nD τ).loc main_arg6)) :=
  (Gen.W2_of_ne m ρ c main_arg6 (by decide)).trans (W1_arg6 m ρ c)
theorem W2_arg7 (c : Dev nD) : Gen.W2 m ρ c (Proc.devRef .tc main_arg7) = (m ((c : Thread nD τ).loc main_arg7)) :=
  (Gen.W2_of_ne m ρ c main_arg7 (by decide)).trans (W1_arg7 m ρ c)

/-! ## The second stretch of host operations, read at what the second kernel takes -/

set_option maxHeartbeats 4000000 in
theorem V3_v43 (c : Dev nD) : Gen.V3 m ρ c main_v43
    = aggregate (Gen.W2 m ρ c (Proc.devRef .tc main_v24)) (Gen.W2 m ρ c (Proc.devRef .tc main_v1)) (Gen.W2 m ρ c (Proc.devRef .tc main_v3)) := by
  show StableHlo.after Gen.hostOps1 (Gen.W2 m ρ c) (Proc.devRef .tc main_v43) = _
  after_results_simp <;> rfl

set_option maxHeartbeats 4000000 in
theorem V3_v44 (c : Dev nD) : Gen.V3 m ρ c main_v44 = shapeCast S1x64 (Gen.W2 m ρ c (Proc.devRef .tc main_arg6)) shapeCasts_S64_S1x64 := by
  show StableHlo.after Gen.hostOps1 (Gen.W2 m ρ c) (Proc.devRef .tc main_v44) = _
  after_results_simp <;> rfl

set_option maxHeartbeats 4000000 in
theorem V3_v24 (c : Dev nD) : Gen.V3 m ρ c main_v24 = Gen.W2 m ρ c (Proc.devRef .tc main_v24) := by
  show StableHlo.after Gen.hostOps1 (Gen.W2 m ρ c) (Proc.devRef .tc main_v24) = _
  after_results_simp <;> rfl

set_option maxHeartbeats 4000000 in
theorem V3_arg5 (c : Dev nD) : Gen.V3 m ρ c main_arg5 = Gen.W2 m ρ c (Proc.devRef .tc main_arg5) := by
  show StableHlo.after Gen.hostOps1 (Gen.W2 m ρ c) (Proc.devRef .tc main_arg5) = _
  after_results_simp <;> rfl

set_option maxHeartbeats 4000000 in
theorem V3_arg7 (c : Dev nD) : Gen.V3 m ρ c main_arg7 = Gen.W2 m ρ c (Proc.devRef .tc main_arg7) := by
  show StableHlo.after Gen.hostOps1 (Gen.W2 m ρ c) (Proc.devRef .tc main_arg7) = _
  after_results_simp <;> rfl

/-! ## After the second kernel -/

/-- THE RESULT: the second kernel's output array is the two-layer function of the launch contents of the arguments. -/
theorem result_eq (c : Dev nD) : Gen.W4 m ρ c (Proc.devRef .tc main_v45)
    = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Gen.W4_arr m ρ c 5).trans ?_
  refine (RegionValue.final1 (Gen.V3 m ρ) c).trans ?_
  rw [V3_v43, V3_v24, V3_arg5, V3_arg7, W2_v24, W2_v1, W2_v3, W2_arg5, W2_arg7]
  unfold twoLayers
  refine congrArg (lin (R := 100000) _ _ _ _) ?_
  funext j
  rw [V3_v44, W2_arg6]
  exact bias_row _ j

end Cert.KernelIdeal.HostValue

end
-- ==== Proof.RefRead.lean ====
/-
  The reference's result is the two-layer function of its arguments.

  The reference computes each layer on the host as (agg · Wl + b) + x · Wr over the whole arrays, the bias vector
  broadcast along the rows, with the floor at zero after the first layer, and it aggregates with the very operations
  the kernel's program uses. Entry by entry its layer is the sums Σ_k agg[r,k]·Wl[k,j], Σ_k x[r,k]·Wr[k,j] and b[j]
  added in another order than the kernel's, which commutativity and associativity of + on the extended reals
  reconcile; the aggregation is never opened.
-/
import proofs.«172333_j50276887167532_1_alg».proof.Proof.Gen.ReferenceIdeal.Run
import proofs.«172333_j50276887167532_1_alg».proof.Proof.HostRead

set_option maxRecDepth 16384

noncomputable section

namespace Cert.ReferenceIdeal.RefValue

open Idealize.ShloMosaic Idealize.ShloMosaic.TcCoe Idealize.ShloMosaic.ValueIdx
open Idealize.SL.Sem
open Cert.ReferenceIdeal Cert.ReferenceIdeal.Facts₀ Cert.Sage
open Cert.KernelIdeal.HostValue (srcOf dstOf aggregate hidden twoLayers)

/-- The host's layer on whole arrays: (a · wl + b along the rows) + x · wr. -/
def hostLayer (a x : FVec Ideal S100000x64 .f32) (wl : FVec Ideal S64x64 .f32) (b : FVec Ideal S64 .f32)
    (wr : FVec Ideal S64x64 .f32) : FVec Ideal S100000x64 .f32 :=
  addf (addf (Host.dotGeneral (F := Ideal) (φ₁ := .f32) (φ₂ := .f32) dot_S100000x64_S64x64_S100000x64_1_0_0_1_n_n none a wl)
      (broadcastInDim S100000x64 ![0, 1] bcast_S1x64_S100000x64_0_1 (broadcastInDim S1x64 ![1] bcast_S64_S1x64_1 b)))
    (Host.dotGeneral (F := Ideal) (φ₁ := .f32) (φ₂ := .f32) dot_S100000x64_S64x64_S100000x64_1_0_0_1_n_n none x wr)

/-- The floor at zero, as the host applies it. -/
def floorZero (v : FVec Ideal S100000x64 .f32) : FVec Ideal S100000x64 .f32 :=
  maximumf v (broadcastInDim S100000x64 ![] bcast_S_S100000x64 (constant (F := Ideal) S_ .f32 0x00000000#32))

/-- The bias vector broadcast to one row and then along the rows reads, at (r, j), its entry j. -/
theorem bias_bcast (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  generalize hy : broadcastInDim S1x64 ![1] bcast_S64_S1x64_1 b = y
  refine (broadcastInDim_apply _ bcast_S1x64_S100000x64_0_1 y (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  subst hy
  exact broadcastInDim_apply _ bcast_S64_S1x64_1 b (ix2 (0 : Fin 1) j) (ix1 j) (fun a => match a with
    | ⟨0, _⟩ => by show j.val = if (64 : Nat) = 1 then 0 else j.val; rw [if_neg (by decide)])

theorem dot_plain : dot_S100000x64_S64x64_S100000x64_1_0_0_1_n_n = DotDims.plain 100000 64 64 := rfl

/-- The host's layer is the layer. -/
theorem hostLayer_eq (a x : FVec Ideal S100000x64 .f32) (wl : FVec Ideal S64x64 .f32) (b : FVec Ideal S64 .f32)
    (wr : FVec Ideal S64x64 .f32) :
    hostLayer a x wl b wr = lin (R := 100000) a x wl wr (fun j => b (ix1 j)) := by
  funext i
  obtain ⟨r, j, rfl⟩ : ∃ (r : Fin 100000) (j : Fin 64), i = ix2 r j := ⟨i 0, i 1, eq_ix2 (n0 := 100000) (n1 := 64) i⟩
  rw [lin_apply]
  unfold hostLayer
  rw [dot_plain]
  exact host_arrangement (R := 100000) a x wl wr _ (fun j => b (ix1 j)) r j (bias_bcast b r j)

/-- The host's layer with the floor is the layer with the floor. -/
theorem floor_hostLayer_eq (a x : FVec Ideal S100000x64 .f32) (wl : FVec Ideal S64x64 .f32) (b : FVec Ideal S64 .f32)
    (wr : FVec Ideal S64x64 .f32) :
    floorZero (hostLayer a x wl b wr) = linFloor (R := 100000) a x wl wr (fun j => b (ix1 j)) := by
  funext i
  obtain ⟨r, j, rfl⟩ : ∃ (r : Fin 100000) (j : Fin 64), i = ix2 r j := ⟨i 0, i 1, eq_ix2 (n0 := 100000) (n1 := 64) i⟩
  unfold floorZero
  rw [maximumf_apply, hostLayer_eq, lin_apply, linFloor_apply]
  refine congrArg (fun z : EReal => max (affAt (R := 100000) a x wl wr (fun j => b (ix1 j)) r j) z) ?_
  refine (broadcastInDim_apply _ bcast_S_S100000x64 (constant (F := Ideal) S_ .f32 0x00000000#32) (ix2 r j)
    (fun a => a.elim0) (fun a => a.elim0)).trans ?_
  exact Ideal.ofBits_zero_f32

variable (m : (ℓ : Loc nD τ sig) → Buf (Elt Ideal) ℓ)

/-- The reference's result term, layer by layer over the shared aggregation. -/
theorem res_layers (c : Dev nD) :
    Cert.ReferenceIdeal.Value.res_main_v54 (F := Ideal) m c
      = hostLayer
          (aggregate (floorZero (hostLayer (aggregate (m ((c.tc : Thread nD τ).loc main_arg0)) (srcOf (m ((c.tc : Thread nD τ).loc main_arg1))) (dstOf (m ((c.tc : Thread nD τ).loc main_arg1))))
              (m ((c.tc : Thread nD τ).loc main_arg0)) (m ((c.tc : Thread nD τ).loc main_arg2)) (m ((c.tc : Thread nD τ).loc main_arg3)) (m ((c.tc : Thread nD τ).loc main_arg4))))
            (srcOf (m ((c.tc : Thread nD τ).loc main_arg1))) (dstOf (m ((c.tc : Thread nD τ).loc main_arg1))))
          (floorZero (hostLayer (aggregate (m ((c.tc : Thread nD τ).loc main_arg0)) (srcOf (m ((c.tc : Thread nD τ).loc main_arg1))) (dstOf (m ((c.tc : Thread nD τ).loc main_arg1))))
              (m ((c.tc : Thread nD τ).loc main_arg0)) (m ((c.tc : Thread nD τ).loc main_arg2)) (m ((c.tc : Thread nD τ).loc main_arg3)) (m ((c.tc : Thread nD τ).loc main_arg4))))
          (m ((c.tc : Thread nD τ).loc main_arg5)) (m ((c.tc : Thread nD τ).loc main_arg6)) (m ((c.tc : Thread nD τ).loc main_arg7)) := by
  unfold Cert.ReferenceIdeal.Value.res_main_v54
  rfl

/-- THE REFERENCE'S RESULT is the two-layer function of its arguments. -/
theorem result_eq (c : Dev nD) :
    Cert.ReferenceIdeal.Value.res_main_v54 (F := Ideal) m c
      = twoLayers (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [res_layers, hostLayer_eq, floor_hostLayer_eq]
  rfl

end Cert.ReferenceIdeal.RefValue

end
-- ==== Proof.lean ====
/-
  A two-layer mean-aggregation graph network: two fused layer kernels against the host reference.

  Both programs aggregate node features over the edge list with the same host operations (gather at the sources,
  add into the destinations, divide by the clamped in-degree). A layer is then agg · Wl + x · Wr + b, with a floor at
  zero after the first layer only. The kernel's program computes each layer in a kernel over 20 blocks of 5000 rows,
  adding the two products first and the bias last; the reference computes it on the host over the whole arrays,
  adding the bias to the first product and then the second product. Over the extended reals the two orders give the
  same entries because + is commutative and associative there with no condition on the summands, a change of float
  format is the identity and a product accumulated from zero is the plain sum: so the precondition is never used.

  The three programs' runs come from the generated frames and the generated reference run; what is proved by hand
  is that the kernel program's result array (read off its run: module KernelRun, then RegionValue for each kernel's
  output array and HostRead for the host operations between them) and the reference's result term (RefRead) are one
  function `twoLayers` of the eight arguments. No rewrite was made by the idealization, so nothing is owed for it.
-/
import proofs.«172333_j50276887167532_1_alg».proof.Defs
import proofs.«172333_j50276887167532_1_alg».proof.Proof.Gen.Kernel
import proofs.«172333_j50276887167532_1_alg».proof.Proof.Gen.Kernel.Frame
import proofs.«172333_j50276887167532_1_alg».proof.Proof.Gen.KernelIdeal
import proofs.«172333_j50276887167532_1_alg».proof.Proof.Gen.KernelIdeal.Frame
import proofs.«172333_j50276887167532_1_alg».proof.Proof.Gen.ReferenceIdeal
import proofs.«172333_j50276887167532_1_alg».proof.Proof.Gen.Pre_finite_inputs
import proofs.«172333_j50276887167532_1_alg».proof.Proof.Gen.ReferenceIdeal.Run
import proofs.«172333_j50276887167532_1_alg».proof.Proof.KernelRun
import proofs.«172333_j50276887167532_1_alg».proof.Proof.HostRead
import proofs.«172333_j50276887167532_1_alg».proof.Proof.RefRead
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the two-layer function of the
    arguments in their result arrays, and the arguments unchanged. -/
theorem algebraic : Cert.algebraic_KernelIdeal_ReferenceIdeal := by
  intro m ρ m' ρ' _ hagree
  refine ⟨fun c => Cert.KernelIdeal.HostValue.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
